-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x256 : Shape := ⟨2, ![4096, 256]⟩
abbrev S1x256 : Shape := ⟨2, ![1, 256]⟩
abbrev S1024x256 : Shape := ⟨2, ![1024, 256]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LinearSpec.lean ====
/-
  The function both programs compute, entry by entry: a linear layer.

  For x of 8192 rows and 4096 columns, a square weight w of order 4096 and a bias b of length 4096, entry (r, c) of
  the result is the sum over k of x(r, k) * w(k, c), plus b(c), on the extended reals. Nothing is assumed finite:
  the statement uses only the sum and the product as they are.
-/
import Idealize.ShloMosaic.PureOps.Ideal
import Idealize.ShloMosaic.Lib.ValueIdx

noncomputable section

namespace Cert.LinearSpec

open Idealize.ShloMosaic Idealize.ShloMosaic.ValueIdx

/-- x * w + b at the index i = (r, c): the sum over k of x(r, k) * w(k, c), plus b(c). -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * w (ix2 k (i 1))) + b (ix1 (i 1))

/-- The same entry with the row and the column named. -/
theorem affine_ix2 (x : (⟨2, ![8192, 4096]⟩ : Shape).Idx → EReal) (w : (⟨2, ![4096, 4096]⟩ : Shape).Idx → EReal)
    (b : (⟨1, ![4096]⟩ : Shape).Idx → EReal) (r : Fin 8192) (c : Fin 4096) :
    affine x w b (ix2 r c) = (∑ k : Fin 4096, x (ix2 r k) * w (ix2 k c)) + b (ix1 c) := rfl

end Cert.LinearSpec

end
-- ==== Proof.RefAffine.lean ====
/-
  The reference computes the linear layer of LinearSpec.

  Its four host operations are a matrix product contracting x's columns with w's rows, the bias laid out as one row
  and repeated down every row, and an addition. Read at an index (r, c): the product is the sum over k of
  x(r, k) * w(k, c); the repeated bias is b(c) whatever r is; the addition is the extended reals' own.
-/
import proofs.«156012_g35433480192895_cont_8to1_b_1472_7_alg».proof.Proof.Gen.ReferenceIdeal.Read
import proofs.«156012_g35433480192895_cont_8to1_b_1472_7_alg».proof.Proof.LinearSpec

noncomputable section

namespace Cert.ReferenceIdeal.RefValue

open Cert.ReferenceIdeal Cert.ReferenceIdeal.Read Idealize.ShloMosaic Idealize.ShloMosaic.ValueIdx

/-- The product's left operand is read at row r of x, column k. -/
theorem lhs_index (i : S8192x4096.Idx) (k : Fin 4096) : lidx_main_v0 i k = ix2 (i 0) k :=
  funext fun a => Fin.ext (by match a with | ⟨0, _⟩ => rfl | ⟨1, _⟩ => rfl)

/-- Its right operand at row k of w, column c. -/
theorem rhs_index (i : S8192x4096.Idx) (k : Fin 4096) : ridx_main_v0 i k = ix2 k (i 1) :=
  funext fun a => Fin.ext (by match a with | ⟨0, _⟩ => rfl | ⟨1, _⟩ => rfl)

/-- The bias, laid out as one row and repeated down the rows, is read at the column alone. -/
theorem bias_index (i : S8192x4096.Idx) : idx_main_v1 (idx_main_v2 i) = ix1 (i 1) :=
  funext fun a => Fin.ext (by match a with | ⟨0, _⟩ => rfl)

/-- The reference's result is the linear layer of its three arguments. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = Cert.LinearSpec.affine x w b := by
  funext i
  rw [val_main_v3_apply, val_main_v0_apply, val_main_v2_apply, val_main_v1_apply]
  simp only [lhs_index, rhs_index, bias_index]
  rfl

end Cert.ReferenceIdeal.RefValue

end
-- ==== Proof.Pieces.lean ====
/-
  What one grid point leaves behind, as values of what it loaded.

  The body keeps a copy of the current strip of 1024 rows of x in a buffer of its own. At the first point of a strip
  it stores the strip there (changing only its float format) and then multiplies what it has just stored; at every
  other point it multiplies what the buffer already holds. Either way its one store to the output block is the
  product of the held strip with the current 256 columns of w, plus the current 256 entries of the bias row.
  Every load and store goes through the whole buffer at offset zero, so a load reads the contents and the last
  store leaves its payload.
-/
import proofs.«156012_g35433480192895_cont_8to1_b_1472_7_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The offset of every load and store of the body is zero on both axes. -/
theorem hz : (![0, 0] : Fin 2 → Nat) = fun _ => 0 := funext fun a => by fin_cases a <;> rfl

/-- At the first point of a strip the held copy becomes the strip just loaded, in the narrower format. -/
theorem strip_first (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x4096 .bf16) (harg6 : arg6.IsWhole) (hc0 : cond0_0 i)
    (x0 : Vec F S1024x4096 .f32) (x1 : Vec F S4096x256 .f32) (x2 : Vec F S1x256 .f32) :
    sout0_A_0 c i arg2 harg2 arg3 harg3 arg4 harg4 arg5 harg5 arg6 harg6 hc0 x0 x1 x2 = k0_pay1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, View.ld_unit_zero (S := S1024x4096) hz]

/-- At the first point of a strip the output block is the product of the strip just stored with the columns of w,
    plus the bias entries. -/
theorem block_first (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x4096 .bf16) (harg6 : arg6.IsWhole) (hc0 : cond0_0 i)
    (x0 : Vec F S1024x4096 .f32) (x1 : Vec F S4096x256 .f32) (x2 : Vec F S1x256 .f32) :
    out0_A_3 c i arg2 harg2 arg3 harg3 arg4 harg4 arg5 harg5 arg6 harg6 hc0 x0 x1 x2 = k0_pay2 x1 (k0_pay1 x0) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz, View.readCov_unit_zero (S := S1024x4096) _ hz]
  simp only [View.readAt_eq_ld, harg2.read_unread, harg3.read_unread, harg4.read_unread,
    View.ld_unit_zero (S := S1024x4096) hz, View.ld_unit_zero (S := S4096x256) hz, View.ld_unit_zero (S := S1x256) hz]

/-- At any other point the output block is the product of the strip the buffer holds with the columns of w, plus
    the bias entries. -/
theorem block_later (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x4096 .bf16) (harg6 : arg6.IsWhole) (hc0 : ¬cond0_0 i)
    (x0 : Vec F S1024x4096 .f32) (x1 : Vec F S4096x256 .f32) (x2 : Vec F S1x256 .f32) (xs0 : Vec F S1024x4096 .bf16) :
    out0_B_3 c i arg2 harg2 arg3 harg3 arg4 harg4 arg5 harg5 arg6 harg6 hc0 x0 x1 x2 xs0 = k0_pay2 x1 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg3.read_unread, harg4.read_unread, harg6.read_unread,
    View.ld_unit_zero (S := S1024x4096) hz, View.ld_unit_zero (S := S4096x256) hz, View.ld_unit_zero (S := S1x256) hz]

end Cert.KernelIdeal.Pieces

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.PayloadAt.lean ====
/-
  The body's two stored values, read at an index, on the extended reals.

  The held strip is the loaded strip: a change of float format is the identity there. The output block's entry
  (p, q) is the sum over k of strip(p, k) * w(k, q) — the product is taken into a zero accumulator, and the
  narrowing of w is again the identity — plus the bias row's entry q, the row being repeated down the block.
-/
import proofs.«156012_g35433480192895_cont_8to1_b_1472_7_alg».proof.Proof.Gen.KernelIdeal.Skeleton
import proofs.«156012_g35433480192895_cont_8to1_b_1472_7_alg».proof.Proof.LibMatmulRows
import Idealize.ShloMosaic.Lib.Pipeline.Value
import Idealize.ShloMosaic.Lib.ValueIdx

noncomputable section

namespace Cert.KernelIdeal.PayloadAt

open Cert.KernelIdeal Cert.KernelIdeal.Gen Idealize.ShloMosaic Idealize.ShloMosaic.ValueIdx

/-- The held copy of the strip is the strip, entry by entry. -/
theorem held_entry (x : Vec Ideal S1024x4096 .f32) (y : S1024x4096.Idx) : k0_pay1 (F := Ideal) x y = x y := by
  unfold k0_pay1
  rw [shapeCast_self]
  rfl

/-- The product's left operand is read in the row of the output entry, -/
theorem lhs_row (i : S1024x256.Idx) (q : dot_S1024x4096_S4096x256_S1024x256_1_0_0_1_n_n.contr.Idx) : (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  rfl

/-- and its right operand in the column of the output entry. -/
theorem rhs_col (i : S1024x256.Idx) (q : dot_S1024x4096_S4096x256_S1024x256_1_0_0_1_n_n.contr.Idx) : (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  rfl

/-- The product of a strip with 256 columns, into the zero accumulator: entry (p, q) is the sum over k. -/
theorem product_entry (s : FVec Ideal S1024x4096 .bf16) (w : FVec Ideal S4096x256 .bf16) (i : S1024x256.Idx) :
    matmul dot_S1024x4096_S4096x256_S1024x256_1_0_0_1_n_n none s w (constant (F := Ideal) S1024x256 .f32 0x00000000#32) i
      = ∑ k : Fin 4096, s (ix2 (i 0) k) * w (ix2 k (i 1)) :=
  Idealize.ShloMosaic.MatmulRows.matmul_zero_apply dot_S1024x4096_S4096x256_S1024x256_1_0_0_1_n_n none rfl rfl rfl rfl lhs_row rhs_col s w i

/-- The bias row repeated down the block: entry (p, q) is the row's entry q. -/
theorem bias_entry (b : Vec Ideal S1x256 .f32) (p : Fin 1024) (q : Fin 256) :
    broadcastTo S1024x256 (shapeCast S1x256 b shapeCasts_S1x256_S1x256) broadcasts_S1x256_S1024x256 (ix2 p q)
      = b (ix2 (0 : Fin 1) q) := by
  rw [shapeCast_self]
  exact broadcastTo_apply b broadcasts_S1x256_S1024x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- The output block's entry (p, q): the strip's row p against w's column q, plus the bias entry q. -/
theorem block_entry (w : Vec Ideal S4096x256 .f32) (s : Vec Ideal S1024x4096 .bf16) (b : Vec Ideal S1x256 .f32)
    (p : Fin 1024) (q : Fin 256) :
    k0_pay2 (F := Ideal) w s b (ix2 p q) = (∑ k : Fin 4096, s (ix2 p k) * w (ix2 k q)) + b (ix2 (0 : Fin 1) q) := by
  unfold k0_pay2
  exact congrArg₂ (· + ·) (product_entry s (truncf .bf16 w bitsLt_bf16_f32) (ix2 p q)) (bias_entry b p q)

end Cert.KernelIdeal.PayloadAt

end
-- ==== Proof.Blocks.lean ====
/-
  Which entries of the arguments a grid point sees.

  The 128 points run through 8 strips of 1024 rows, and within a strip through 16 blocks of 256 columns: point n
  works on strip n / 16 and column block n % 16. Its window on x is the whole strip (all 4096 columns), its window
  on w all 4096 rows of the column block, its window on the bias row the column block of that one row, and its
  output window the strip's rows in the column block. The bias row itself is the bias vector laid out as a 1 by
  4096 array before the kernel starts, so its entry (0, j) is the vector's entry j.
-/
import proofs.«156012_g35433480192895_cont_8to1_b_1472_7_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

/-- Row p of the strip that point n works on, as a row of x. -/
def rowOf (n : ℕ) (hn : n < 128) (p : Fin 1024) : Fin 8192 :=
  ⟨1024 * (n / 16) + p.val, by have := p.isLt; omega⟩

/-- Column q of the column block that point n works on, as a column of w. -/
def colOf (n : ℕ) (hn : n < 128) (q : Fin 256) : Fin 4096 :=
  ⟨256 * (n % 16) + q.val, by have := q.isLt; omega⟩

/-- Two points of one strip see the same rows. -/
theorem rowOf_congr {n n' : ℕ} (hn : n < 128) (hn' : n' < 128) (h : n / 16 = n' / 16) (p : Fin 1024) :
    rowOf n hn p = rowOf n' hn' p := Fin.ext (by show 1024 * (n / 16) + p.val = 1024 * (n' / 16) + p.val; rw [h])

/-- There are 128 points. -/
theorem point_lt (t : Fin cfg0.N) : t.val < 128 := lt_of_lt_of_eq t.isLt (show cfg0.N = 128 from N_0)

/-- The four windows' block numbers at each point, decided over the grid. -/
theorem block_numbers : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = t.val / 16 ∧ win0_3.index t (1 : Fin 2) = t.val % 16 :=
  (by decide +kernel : ∀ t : Fin grid0.N, _)

variable (m : (ℓ : Loc nD τ sig) → Buf (Elt Ideal) ℓ)

/-- The window on x at point t, entry (p, k): row p of the point's strip, column k. -/
theorem x_block (c : Dev nD) (t : Fin cfg0.N) (p : Fin 1024) (k : Fin 4096) :
    (iblk m c 0 t : Vec Ideal S1024x4096 .f32) (ix2 p k) = V m c main_arg0 (ix2 (rowOf t.val (point_lt t) p) k) := by
  obtain ⟨e0, e1, -⟩ := block_numbers t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 4096 + 1 * k.val = k.val; rw [e1]; omega

/-- The window on w at point t, entry (k, q): row k, column q of the point's column block. -/
theorem w_block (c : Dev nD) (t : Fin cfg0.N) (k : Fin 4096) (q : Fin 256) :
    (iblk m c 1 t : Vec Ideal S4096x256 .f32) (ix2 k q) = V m c main_arg1 (ix2 k (colOf t.val (point_lt t) q)) := by
  obtain ⟨-, -, e0, e1, -⟩ := block_numbers t
  show V m c main_arg1 (((cfg0.win 1).blk t).view.emb (ix2 k q)) = _
  refine congrArg (V m c main_arg1) (funext fun a => Fin.ext ?_)
  match a with
  | ⟨0, _⟩ => show win0_1.index t (0 : Fin 2) * 4096 + 1 * k.val = k.val; rw [e0]; omega
  | ⟨1, _⟩ => show win0_1.index t (1 : Fin 2) * 256 + 1 * q.val = 256 * (t.val % 16) + q.val; rw [e1]; omega

/-- The window on the bias row at point t, entry (0, q): column q of the point's column block. -/
theorem bias_block (c : Dev nD) (t : Fin cfg0.N) (q : Fin 256) :
    (iblk m c 2 t : Vec Ideal S1x256 .f32) (ix2 (0 : Fin 1) q)
      = V m c main_call0_v0 (ix2 (0 : Fin 1) (colOf t.val (point_lt t) q)) := by
  obtain ⟨-, -, -, -, e0, e1, -⟩ := block_numbers t
  show V m c main_call0_v0 (((cfg0.win 2).blk t).view.emb (ix2 (0 : Fin 1) q)) = _
  refine congrArg (V m c main_call0_v0) (funext fun a => Fin.ext ?_)
  match a with
  | ⟨0, _⟩ => show win0_2.index t (0 : Fin 2) * 1 + 1 * 0 = 0; rw [e0]
  | ⟨1, _⟩ => show win0_2.index t (1 : Fin 2) * 256 + 1 * q.val = 256 * (t.val % 16) + q.val; rw [e1]; omega

/-- The bias row is the bias vector laid out as one row: its entry (0, j) is the vector's entry j. -/
theorem bias_row (c : Dev nD) (j : Fin 4096) :
    V m c main_call0_v0 (ix2 (0 : Fin 1) j) = m ((c : Thread nD τ).loc main_arg2) (ix1 j) := by
  have e : (V m c main_call0_v0 : S1x4096.Idx → EReal)
      = shapeCast S1x4096 (m ((c : Thread nD τ).loc main_arg2)) shapeCasts_S4096_S1x4096 := by
    dsimp only [Gen.V, Gen.hostOps0]; after_results; rfl
  rw [e]
  exact shapeCast_apply _ shapeCasts_S4096_S1x4096 (ix2 (0 : Fin 1) j) (ix1 j) (by
    rw [Shape.rowMajor_val_one, Shape.rowMajor_val_two]
    show j.val = 0 * 4096 + j.val
    omega)

/-- No host operation touches x before the kernel starts, so the window reads the launched x. -/
theorem x_entry (c : Dev nD) (t : Fin cfg0.N) (p : Fin 1024) (k : Fin 4096) :
    (iblk m c 0 t : Vec Ideal S1024x4096 .f32) (ix2 p k)
      = m ((c : Thread nD τ).loc main_arg0) (ix2 (rowOf t.val (point_lt t) p) k) :=
  (x_block m c t p k).trans (congrFun (V_main_arg0 m c) _)

/-- The same for w. -/
theorem w_entry (c : Dev nD) (t : Fin cfg0.N) (k : Fin 4096) (q : Fin 256) :
    (iblk m c 1 t : Vec Ideal S4096x256 .f32) (ix2 k q)
      = m ((c : Thread nD τ).loc main_arg1) (ix2 k (colOf t.val (point_lt t) q)) :=
  (w_block m c t k q).trans (congrFun (V_main_arg1 m c) _)

/-- The window on the bias row reads the launched bias vector at the column. -/
theorem bias_entry (c : Dev nD) (t : Fin cfg0.N) (q : Fin 256) :
    (iblk m c 2 t : Vec Ideal S1x256 .f32) (ix2 (0 : Fin 1) q)
      = m ((c : Thread nD τ).loc main_arg2) (ix1 (colOf t.val (point_lt t) q)) :=
  (bias_block m c t q).trans (bias_row m c _)

end Cert.KernelIdeal.Blocks

end
-- ==== Proof.Carried.lean ====
/-
  What the body's own buffer and the output block hold after each point.

  The buffer is refilled at the first point of each strip and left alone at the other fifteen, so after point n it
  holds the strip n / 16 of x: by induction on n, the step at a later point of a strip using that n - 1 lies in the
  same strip. Hence at every point the output block's entry (p, q) is the linear layer's entry at row p of the
  point's strip and column q of its column block.
-/
import proofs.«156012_g35433480192895_cont_8to1_b_1472_7_alg».proof.Proof.Pieces
import proofs.«156012_g35433480192895_cont_8to1_b_1472_7_alg».proof.Proof.PayloadAt
import proofs.«156012_g35433480192895_cont_8to1_b_1472_7_alg».proof.Proof.Blocks
import proofs.«156012_g35433480192895_cont_8to1_b_1472_7_alg».proof.Proof.LinearSpec

noncomputable section

namespace Cert.KernelIdeal.Carried

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- At the first point of a strip the buffer is refilled with that strip. -/
theorem held_first (c : Dev nD) (t : Fin cfg0.N) (h0 : t.val % 16 = 0) (p : Fin 1024) (k : Fin 4096) :
    (outsAt0 m c t.val t.isLt).2 (ix2 p k)
      = m ((c : Thread nD τ).loc main_arg0) (ix2 (rowOf t.val (point_lt t) p) k) := by
  rw [outsAt0_A m c t h0]
  dsimp only
  rw [Pieces.strip_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  exact (PayloadAt.held_entry (iblk m c 0 t) (ix2 p k)).trans (x_entry m c t p k)

/-- After point n the buffer holds the strip that point n works on. -/
theorem held (c : Dev nD) : ∀ (n : ℕ) (hn : n < cfg0.N) (p : Fin 1024) (k : Fin 4096),
    (outsAt0 m c n hn).2 (ix2 p k)
      = m ((c : Thread nD τ).loc main_arg0) (ix2 (rowOf n (point_lt ⟨n, hn⟩) p) k)
  | 0, hn, p, k => held_first m c ⟨0, hn⟩ rfl p k
  | n + 1, hn, p, k => by
    by_cases h0 : (n + 1) % 16 = 0
    · exact held_first m c ⟨n + 1, hn⟩ h0 p k
    · rw [outsAt0_B m c ⟨n + 1, hn⟩ h0]
      dsimp only
      unfold sout0_B_0
      refine (held c n (Nat.lt_of_succ_lt hn) p k).trans ?_
      exact congrArg (fun r => m ((c : Thread nD τ).loc main_arg0) (ix2 r k))
        (rowOf_congr (n := n) (n' := n + 1) (point_lt ⟨n, Nat.lt_of_succ_lt hn⟩) (point_lt ⟨n + 1, hn⟩)
          (show n / 16 = (n + 1) / 16 by omega) p)

/-- The linear layer of the launched arguments. -/
abbrev layer (c : Dev nD) : S8192x4096.Idx → EReal :=
  Cert.LinearSpec.affine (m ((c : Thread nD τ).loc main_arg0)) (m ((c : Thread nD τ).loc main_arg1))
    (m ((c : Thread nD τ).loc main_arg2))

/-- At every point the output block's entry (p, q) is the layer's entry at the strip's row p and the column
    block's column q. -/
theorem block_entry (c : Dev nD) (t : Fin cfg0.N) (p : Fin 1024) (q : Fin 256) :
    (outsAt0 m c t.val t.isLt).1 (ix2 p q)
      = layer m c (ix2 (rowOf t.val (point_lt t) p) (colOf t.val (point_lt t) q)) := by
  refine Eq.trans ?_ (Cert.LinearSpec.affine_ix2 _ _ _ _ _).symm
  by_cases h0 : t.val % 16 = 0
  · rw [outsAt0_A m c t h0]
    dsimp only
    rw [Pieces.block_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    refine (PayloadAt.block_entry (iblk m c 1 t) (k0_pay1 (iblk m c 0 t)) (iblk m c 2 t) p q).trans ?_
    exact congrArg₂ (· + ·)
      (Finset.sum_congr rfl fun k _ => congrArg₂ (· * ·)
        ((PayloadAt.held_entry (iblk m c 0 t) (ix2 p k)).trans (x_entry m c t p k)) (w_entry m c t k q))
      (bias_entry m c t q)
  · have hpos : t.val - 1 < cfg0.N := Nat.lt_of_le_of_lt (Nat.sub_le _ _) t.isLt
    rw [outsAt0_B m c t h0]
    dsimp only
    rw [Pieces.block_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) hpos).2]
    refine (PayloadAt.block_entry (iblk m c 1 t) (outsAt0 m c (t.val - 1) hpos).2 (iblk m c 2 t) p q).trans ?_
    exact congrArg₂ (· + ·)
      (Finset.sum_congr rfl fun k _ => congrArg₂ (· * ·)
        ((held m c (t.val - 1) hpos p k).trans
          (congrArg (fun r => m ((c : Thread nD τ).loc main_arg0) (ix2 r k))
            (rowOf_congr (n := t.val - 1) (n' := t.val) (point_lt ⟨t.val - 1, hpos⟩) (point_lt t)
              (show (t.val - 1) / 16 = t.val / 16 by have := point_lt t; omega) p)))
        (w_entry m c t k q))
      (bias_entry m c t q)

end Cert.KernelIdeal.Carried

end
-- ==== Proof.Result.lean ====
/-
  The result array after the run is the linear layer of the launched arguments.

  Point t writes its output block back as rows 1024 * (t / 16) onward and columns 256 * (t % 16) onward of the
  array, and by the induction of Carried that block is the layer's restriction to those rows and columns. Every
  index (r, c) of the array lies in the block of the point 16 * (r / 1024) + c / 256, so the 128 blocks cover the
  array and it ends holding the layer everywhere.
-/
import proofs.«156012_g35433480192895_cont_8to1_b_1472_7_alg».proof.Proof.Carried
import proofs.«156012_g35433480192895_cont_8to1_b_1472_7_alg».proof.Proof.Gen.KernelIdeal.Value

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Carried

variable (m : (ℓ : Loc nD τ sig) → Buf (Elt Ideal) ℓ) (ρ : Dev nD → PrngReg)

/-- What point t writes back is block t of the layer. -/
theorem written_back (c : Dev nD) (t : Fin cfg0.N) :
    (dats m 0 c).flushed 3 t = ((cfg0.win 3).blk t).view.read (Elt Ideal) (layer m c) := by
  rw [Value.flushed3]
  obtain ⟨-, -, -, -, -, -, e0, e1⟩ := block_numbers t
  have entry : ∀ y : S1024x256.Idx,
      (outsAt0 m c t.val t.isLt).1 y = layer m c (((cfg0.win 3).blk t).view.emb y) := by
    intro y
    obtain ⟨p, q, rfl⟩ : ∃ (p : Fin 1024) (q : Fin 256), y = ix2 p q := ⟨y 0, y 1, eq_ix2 y⟩
    refine (Carried.block_entry m c t p q).trans (congrArg (layer m c) (funext fun a => Fin.ext ?_))
    match a with
    | ⟨0, _⟩ => show 1024 * (t.val / 16) + p.val = win0_3.index t (0 : Fin 2) * 1024 + 1 * p.val; rw [e0]; omega
    | ⟨1, _⟩ => show 256 * (t.val % 16) + q.val = win0_3.index t (1 : Fin 2) * 256 + 1 * q.val; rw [e1]; omega
  exact funext fun j => entry j

/-- An index of the array is in point t's block iff each coordinate is in the block's range on its axis. -/
theorem mem_block (t : Fin cfg0.N) (i : S8192x4096.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0).slice (win0_3.rect t)).set ↔ _
  rw [View.set_slice_whole, Rect.mem_set_unit]
  exact Iff.rfl

/-- Every index of the array is in the block of some point, and every point writes back. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  let t : Fin cfg0.N := ⟨16 * ((i 0).val / 1024) + (i 1).val / 256, by rw [hN]; omega⟩
  have ht : t.val = 16 * ((i 0).val / 1024) + (i 1).val / 256 := rfl
  obtain ⟨-, -, -, -, -, -, e0, e1⟩ := block_numbers t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 256 ≤ (i 1).val ∧ (i 1).val < win0_3.index t (1 : Fin 2) * 256 + 256
    rw [e1, ht]; omega

/-- The array after the run: the layer. -/
theorem final (c : Dev nD) : (dats m 0 c).arrAt 3 cfg0.N = layer m c :=
  (dats m 0 c).arrAt_eq_of_cover 3 (layer m c) (fun t _ => written_back m c t) covered

/-- The run, read: the result array at the layer of the launched arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  A linear layer, out = x * W + b, computed by a tiled kernel and by its plain reference: the two agree on the
  extended reals.

  x has 8192 rows and 4096 columns, W is square of order 4096, b has length 4096. The kernel walks a grid of 8 strips
  of 1024 rows by 16 blocks of 256 columns. At the first block of a strip it copies the strip of x into a buffer of
  its own (in a narrower float format, which on the extended reals changes nothing) and it keeps that copy for the
  strip's other fifteen blocks; at every block it multiplies the held strip by the block's 256 columns of W, with all
  4096 terms of each sum taken at once into a zero accumulator, and adds the block's 256 bias entries to every row.
  The reference is one matrix product followed by the bias added to every row.

  Entry (r, c) of either result is the sum over k of x(r, k) * W(k, c), plus b(c) (LinearSpec). For the reference
  this is its four operations read at an index (RefAffine). For the kernel: what one grid point stores, as values
  of what it loads (Pieces, PayloadAt); which entries of the arguments a point's windows show it (Blocks); the held
  strip after every point, by induction along the grid, and with it every output block (Carried); and the 128
  output blocks tiling the result array (Result). The two sums have the same terms in the same order, so no law of
  arithmetic beyond 0 + s = s is used and the inputs' finiteness is never needed.

  The kernel's word-level program and its reading on the extended reals differ by no rewrite, so that the second
  is the first's idealization holds trivially; each program's run leaves its arguments as they were.
-/
import proofs.«156012_g35433480192895_cont_8to1_b_1472_7_alg».proof.Defs
import proofs.«156012_g35433480192895_cont_8to1_b_1472_7_alg».proof.Proof.Gen.Kernel
import proofs.«156012_g35433480192895_cont_8to1_b_1472_7_alg».proof.Proof.Gen.Kernel.Frame
import proofs.«156012_g35433480192895_cont_8to1_b_1472_7_alg».proof.Proof.Gen.KernelIdeal
import proofs.«156012_g35433480192895_cont_8to1_b_1472_7_alg».proof.Proof.Gen.KernelIdeal.Frame
import proofs.«156012_g35433480192895_cont_8to1_b_1472_7_alg».proof.Proof.Gen.KernelIdeal.Value
import proofs.«156012_g35433480192895_cont_8to1_b_1472_7_alg».proof.Proof.Gen.ReferenceIdeal
import proofs.«156012_g35433480192895_cont_8to1_b_1472_7_alg».proof.Proof.Gen.ReferenceIdeal.Run
import proofs.«156012_g35433480192895_cont_8to1_b_1472_7_alg».proof.Proof.Gen.ReferenceIdeal.Read
import proofs.«156012_g35433480192895_cont_8to1_b_1472_7_alg».proof.Proof.Gen.Pre_finite_inputs
import proofs.«156012_g35433480192895_cont_8to1_b_1472_7_alg».proof.Proof.RefAffine
import proofs.«156012_g35433480192895_cont_8to1_b_1472_7_alg».proof.Proof.Result
import Idealize.ShloMosaic.Adequacy
import Idealize.ShloMosaic.Init

noncomputable section

namespace Cert.Proof

open Idealize.ShloMosaic Idealize.SL.Sem

/-- The word-level kernel runs and leaves x, W and b as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on x, W and b, the kernel's result array and the reference's both end at the linear
    layer of those arguments. -/
theorem algebraic : Cert.algebraic_KernelIdeal_ReferenceIdeal := by
  intro m ρ m' ρ' _ hagree
  refine ⟨fun c => Cert.KernelIdeal.Carried.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
